-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128x128 .f32) (main_arg3 : FVec F S128 .f32) (main_arg4 : FVec F S128x128 .f32) (main_arg5 : FVec F S128x128 .f32) (main_arg6 : FVec F S128 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩

abbrev nBuf : Space → Nat
  | .hbm => 63
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S_, .f32⟩
  | .hbm, ⟨50, _⟩ => ⟨S1600000, .f32⟩
  | .hbm, ⟨51, _⟩ => ⟨S_, .f32⟩
  | .hbm, ⟨52, _⟩ => ⟨S100000, .f32⟩
  | .hbm, ⟨53, _⟩ => ⟨S1600000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run, with its result array named.

  The program is two kernel regions among two stretches of host operations. Its run from any memory with zero
  counters ends, on every core, with every unscoped buffer at the contents the fold through the program gives it:
  a host stretch applies its operations, a region leaves its arrays at what its write-backs leave. The argument
  arrays end as launched; the result array (the second region's output window) ends at the fold's value there,
  which the value modules then compute.
-/
import proofs.«133431_j128849019131_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the value the
    fold through the program's segments gives it, and the argument arrays end as launched. -/
theorem run : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Named

end
-- ==== Proof.Spec.lean ====
/-
  The mathematics of one GraphSAGE layer's dense part, stated once over plain index functions on extended reals.

  A layer takes the node features x (100000 rows of 128), the mean of each node's in-neighbours' features (same
  shape), two 128 x 128 weight matrices and a bias row, and gives at node r, output feature q

      ( sum_k x(r, k) * ws(k, q)  +  sum_k mean(r, k) * wn(k, q) )  +  bias(q).

  The first layer then takes the maximum with zero. Both the kernel and the reference compute exactly this
  grouping of sums, so no law of extended-real arithmetic is needed to join them, and no finiteness.
-/
import Idealize.ShloMosaic.PureOps.Ideal
import Idealize.ShloMosaic.Lib.ValueIdx

noncomputable section

namespace Cert.Sage

open Idealize.ShloMosaic Idealize.ShloMosaic.ValueIdx
open scoped BigOperators

/-- Node features: 100000 rows of 128 extended reals. -/
abbrev Nodes : Type := (⟨2, ![100000, 128]⟩ : Shape).Idx → EReal
/-- A 128 x 128 weight matrix. -/
abbrev Weights : Type := (⟨2, ![128, 128]⟩ : Shape).Idx → EReal
/-- A bias laid out as one row of 128. -/
abbrev BiasRow : Type := (⟨2, ![1, 128]⟩ : Shape).Idx → EReal

/-- A bias vector of 128. -/
abbrev Bias : Type := (⟨1, ![128]⟩ : Shape).Idx → EReal

/-- A bias vector laid out as one row. -/
def rowOf (b : Bias) : BiasRow := fun i => b (ix1 (i 1))

/-- The zero a float program writes as the all-zero 32-bit word. -/
def zero32 : EReal := Ideal.ofBits .f32 0x00000000#32

/-- One entry of the layer's affine part from one row of features, one row of neighbour means, the two weight
    matrices and the bias row: the self product plus the neighbour product, then the bias. -/
def entry (xrow mrow : Fin 128 → EReal) (ws wn : Weights) (b : BiasRow) (q : Fin 128) : EReal :=
  (∑ k : Fin 128, xrow k * ws (ix2 k q) + ∑ k : Fin 128, mrow k * wn (ix2 k q)) + b (ix2 (0 : Fin 1) q)

/-- The layer's affine part on all nodes. -/
def affine (x mean : Nodes) (ws wn : Weights) (b : BiasRow) : Nodes :=
  fun i => entry (fun k => x (ix2 (i 0) k)) (fun k => mean (ix2 (i 0) k)) ws wn b (i 1)

/-- The first layer: the affine part, then the maximum with zero. -/
def hidden (x mean : Nodes) (ws wn : Weights) (b : BiasRow) : Nodes :=
  fun i => max (affine x mean ws wn b i) zero32

end Cert.Sage

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.KernelPayload.lean ====
/-
  The two kernel bodies' stored values, read at one entry of the 4000 x 128 output block.

  Each body loads a block of 4000 feature rows, the matching block of neighbour means, both weight matrices and the
  bias row, narrows the four matrices to bf16 (the identity on extended reals), multiplies on the matrix unit into
  a zero accumulator twice, adds the two products, adds the bias row laid along the 4000 rows, and — in the
  first layer only — takes the maximum with zero. At row p and feature q of the block this is the layer's entry
  from row p of the two loaded blocks.
-/
import proofs.«133431_j128849019131_1_alg».proof.Proof.Gen.KernelIdeal.Skeleton
import proofs.«133431_j128849019131_1_alg».proof.Proof.Spec
import proofs.«133431_j128849019131_1_alg».proof.Proof.LibMatmulRows
import Idealize.ShloMosaic.PureOps.Ideal.Laws
import Idealize.ShloMosaic.Lib.Pipeline.Value
import Idealize.ShloMosaic.Lib.ValueLayout
import Idealize.ShloMosaic.Lib.ValueIdx

noncomputable section

namespace Cert.KernelIdeal.Payload

open Cert.KernelIdeal Cert.KernelIdeal.Gen Cert.Sage
open Idealize.ShloMosaic Idealize.ShloMosaic.ValueIdx
open scoped BigOperators

/-- The matrix unit's dimension record of both bodies: rows of the left block against rows of the weights. -/
abbrev MM : DotDims S4000x128 S128x128 S4000x128 := dot_S4000x128_S128x128_S4000x128_1_0_0_1_n_n

/-- The left operand is read at the output's row … -/
theorem lhs_row (i : S4000x128.Idx) (s : MM.contr.Idx) : (MM.lhsIdx i s 0).val = (i 0).val := by
  unfold DotDims.lhsIdx
  rw [dif_neg (show ¬(0 : Fin S4000x128.rank) ∈ MM.lhsBatch by decide),
    dif_pos (show (0 : Fin S4000x128.rank) ∈ MM.lhsNonContracting by decide)]
  rfl
/-- … and the contracted coordinate, -/
theorem lhs_lane (i : S4000x128.Idx) (s : MM.contr.Idx) : (MM.lhsIdx i s 1).val = (s ⟨0, by decide⟩).val :=
  MM.lhsIdx_val_of_single rfl i s
/-- the right operand at the contracted coordinate … -/
theorem rhs_row (i : S4000x128.Idx) (s : MM.contr.Idx) : (MM.rhsIdx i s 0).val = (s ⟨0, by decide⟩).val :=
  MM.rhsIdx_val_of_single rfl i s
/-- … and the output's column. -/
theorem rhs_col (i : S4000x128.Idx) (s : MM.contr.Idx) : (MM.rhsIdx i s 1).val = (i 1).val := by
  unfold DotDims.rhsIdx
  rw [dif_neg (show ¬(1 : Fin S128x128.rank) ∈ MM.rhsBatch by decide),
    dif_pos (show (1 : Fin S128x128.rank) ∈ MM.rhsNonContracting by decide)]
  rfl

/-- A block of 4000 rows times a weight matrix, into zero, at (p, q): the sum over the 128 lanes. -/
theorem block_product {φ₁ φ₂ : FTy} (l : FVec Ideal S4000x128 φ₁) (r : FVec Ideal S128x128 φ₂) (p : Fin 4000) (q : Fin 128) :
    matmul MM none l r (constant (F := Ideal) S4000x128 .f32 0x00000000#32) (ix2 p q)
      = ∑ k : Fin 128, l (ix2 p k) * r (ix2 k q) :=
  Cert.LibMatmulRows.matmul_rows MM rfl rfl lhs_row lhs_lane rhs_row rhs_col l r p q

/-- The first layer's stored value at (p, q): the layer's entry from row p of the loaded blocks, then the maximum
    with zero. -/
theorem first_apply (x0 x1 : Vec Ideal S4000x128 .f32) (x2 x3 : Vec Ideal S128x128 .f32) (x4 : Vec Ideal S1x128 .f32)
    (p : Fin 4000) (q : Fin 128) :
    k0_pay1 x0 x1 x2 x3 x4 (ix2 p q)
      = max (entry (fun k => x0 (ix2 p k)) (fun k => x1 (ix2 p k)) x2 x3 x4 q) zero32 := by
  unfold k0_pay1
  simp only [shapeCast_self]
  show max (((matmul (F := Ideal) MM none _ _ _ (ix2 p q) : EReal) + matmul (F := Ideal) MM none _ _ _ (ix2 p q)) + broadcastTo S4000x128 x4 _ (ix2 p q)) _ = _
  rw [block_product, block_product, broadcastTo_1b_ab_apply]
  rfl

/-- The second layer's stored value at (p, q): the layer's entry from row p of the loaded blocks. -/
theorem second_apply (x0 x1 : Vec Ideal S4000x128 .f32) (x2 x3 : Vec Ideal S128x128 .f32) (x4 : Vec Ideal S1x128 .f32)
    (p : Fin 4000) (q : Fin 128) :
    k1_pay1 x0 x1 x2 x3 x4 (ix2 p q)
      = entry (fun k => x0 (ix2 p k)) (fun k => x1 (ix2 p k)) x2 x3 x4 q := by
  unfold k1_pay1
  simp only [shapeCast_self]
  show ((matmul (F := Ideal) MM none _ _ _ (ix2 p q) : EReal) + matmul (F := Ideal) MM none _ _ _ (ix2 p q)) + broadcastTo S4000x128 x4 _ (ix2 p q) = _
  rw [block_product, block_product, broadcastTo_1b_ab_apply]
  rfl

end Cert.KernelIdeal.Payload

end
-- ==== Proof.KernelBlocks.lean ====
/-
  From blocks to arrays: each kernel region's output array after the region, as one function of the arrays the region
  finds on entry.

  A region walks 25 grid points; at point t it reads rows 4000 t … 4000 t + 3999 of the feature array and of the
  neighbour-mean array, the whole of both weight matrices and of the bias row, and writes rows 4000 t … 4000 t + 3999
  of its output. What a point writes back is therefore the block of the layer's function (first layer: with the
  maximum with zero) of the entry arrays, and the 25 blocks cover the output array.
-/
import proofs.«133431_j128849019131_1_alg».proof.Proof.Gen.KernelIdeal.Frame
import proofs.«133431_j128849019131_1_alg».proof.Proof.KernelPayload
import proofs.«133431_j128849019131_1_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer's entry depends only on the values of the two rows, the two matrices and the bias row. -/
theorem entry_congr {xr xr' mr mr' : Fin 128 → EReal} {ws ws' wn wn' : Weights} {b b' : BiasRow} (q : Fin 128)
    (h0 : ∀ k, xr k = xr' k) (h1 : ∀ k, mr k = mr' k) (h2 : ws = ws') (h3 : wn = wn') (h4 : b = b') :
    entry xr mr ws wn b q = entry xr' mr' ws' wn' b' q := by
  subst h2 h3 h4
  rw [show xr = xr' from funext h0, show mr = mr' from funext h1]

/-! ## Region 0 -/

/-- The printed index maps of region 0, decided over its 25 grid points: the two streamed inputs and the output move
    with the point along the rows, the weights and the bias row stay at block (0, 0). -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 25 :=
  (by decide +kernel : ∀ t : Fin grid0.N, _)

/-- Row p of the feature block at point t is row 4000 t + p of the feature array. -/
theorem feat0 (c : Dev nD) (t : Fin cfg0.N) (p : Fin 4000) (k : Fin 128) (r : Fin 100000) (hr : r.val = 4000 * t.val + p.val) :
    (iblk0 V c 0 t : Vec Ideal S4000x128 .f32) (ix2 p k) = (V c main_arg0 : Nodes) (ix2 r k) := by
  obtain ⟨e0, e1, -⟩ := index0 t
  unfold iblk0
  rw [View.read_apply]
  show V c main_arg0 _ = V c main_arg0 _
  congr 1
  funext a
  apply Fin.ext
  match a with
  | ⟨0, _⟩ => show win0_0.index t 0 * 4000 + 1 * p.val = r.val; omega
  | ⟨1, _⟩ => show win0_0.index t 1 * 128 + 1 * k.val = k.val; omega

/-- Row p of the neighbour-mean block at point t is row 4000 t + p of the neighbour-mean array. -/
theorem mean0 (c : Dev nD) (t : Fin cfg0.N) (p : Fin 4000) (k : Fin 128) (r : Fin 100000) (hr : r.val = 4000 * t.val + p.val) :
    (iblk0 V c 1 t : Vec Ideal S4000x128 .f32) (ix2 p k) = (V c main_v18 : Nodes) (ix2 r k) := by
  obtain ⟨-, -, e0, e1, -⟩ := index0 t
  unfold iblk0
  rw [View.read_apply]
  show V c main_v18 _ = V c main_v18 _
  congr 1
  funext a
  apply Fin.ext
  match a with
  | ⟨0, _⟩ => show win0_1.index t 0 * 4000 + 1 * p.val = r.val; omega
  | ⟨1, _⟩ => show win0_1.index t 1 * 128 + 1 * k.val = k.val; omega

/-- The self weights' block at every point is the whole matrix. -/
theorem wself0 (c : Dev nD) (t : Fin cfg0.N) : (iblk0 V c 2 t : Vec Ideal S128x128 .f32) = (V c main_arg1 : Weights) := by
  obtain ⟨-, -, -, -, e0, e1, -⟩ := index0 t
  funext y
  unfold iblk0
  rw [View.read_apply]
  show V c main_arg1 _ = V c main_arg1 _
  congr 1
  funext a
  apply Fin.ext
  match a with
  | ⟨0, _⟩ => show win0_2.index t 0 * 128 + 1 * (y 0).val = (y 0).val; omega
  | ⟨1, _⟩ => show win0_2.index t 1 * 128 + 1 * (y 1).val = (y 1).val; omega

/-- The neighbour weights' block at every point is the whole matrix. -/
theorem wneigh0 (c : Dev nD) (t : Fin cfg0.N) : (iblk0 V c 3 t : Vec Ideal S128x128 .f32) = (V c main_arg2 : Weights) := by
  obtain ⟨-, -, -, -, -, -, e0, e1, -⟩ := index0 t
  funext y
  unfold iblk0
  rw [View.read_apply]
  show V c main_arg2 _ = V c main_arg2 _
  congr 1
  funext a
  apply Fin.ext
  match a with
  | ⟨0, _⟩ => show win0_3.index t 0 * 128 + 1 * (y 0).val = (y 0).val; omega
  | ⟨1, _⟩ => show win0_3.index t 1 * 128 + 1 * (y 1).val = (y 1).val; omega

/-- The bias row's block at every point is the whole row. -/
theorem bias0 (c : Dev nD) (t : Fin cfg0.N) : (iblk0 V c 4 t : Vec Ideal S1x128 .f32) = (V c main_v19 : BiasRow) := by
  obtain ⟨-, -, -, -, -, -, -, -, e0, e1, -⟩ := index0 t
  funext y
  unfold iblk0
  rw [View.read_apply]
  show V c main_v19 _ = V c main_v19 _
  congr 1
  funext a
  apply Fin.ext
  match a with
  | ⟨0, _⟩ => show win0_4.index t 0 * 1 + 1 * (y 0).val = (y 0).val; omega
  | ⟨1, _⟩ => show win0_4.index t 1 * 128 + 1 * (y 1).val = (y 1).val; omega

/-- What point t writes back is block t of the layer's function of the arrays as the region finds them. -/
theorem flushed0 (c : Dev nD) (t : Fin cfg0.N) :
    (dat0 V c).flushed 5 t = ((cfg0.win 5).blk t).view.read (Elt Ideal)
      (hidden (V c main_arg0) (V c main_v18) (V c main_arg1) (V c main_arg2) (V c main_v19)) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x128) hz, View.ld_unit_zero (S := S1x128) hz]
  obtain ⟨-, -, -, -, -, -, -, -, -, -, e0, e1, ht⟩ := index0 t
  funext j
  obtain ⟨p, q, rfl⟩ : ∃ (p : Fin 4000) (q : Fin 128), j = ix2 p q := ⟨j 0, j 1, eq_ix2 j⟩
  have hp : p.val < 4000 := p.isLt
  have e5 : ((cfg0.win 5).blk t).view.emb (ix2 p q) = ix2 (⟨4000 * t.val + p.val, by omega⟩ : Fin 100000) q := by
    funext a
    apply Fin.ext
    match a with
    | ⟨0, _⟩ => show win0_5.index t 0 * 4000 + 1 * p.val = 4000 * t.val + p.val; omega
    | ⟨1, _⟩ => show win0_5.index t 1 * 128 + 1 * q.val = q.val; omega
  show k0_pay1 (iblk0 V c 0 t) (iblk0 V c 1 t) (iblk0 V c 2 t) (iblk0 V c 3 t) (iblk0 V c 4 t) (ix2 p q)
    = hidden (V c main_arg0) (V c main_v18) (V c main_arg1) (V c main_arg2) (V c main_v19) (((cfg0.win 5).blk t).view.emb (ix2 p q))
  refine (Payload.first_apply (iblk0 V c 0 t) (iblk0 V c 1 t) (iblk0 V c 2 t) (iblk0 V c 3 t) (iblk0 V c 4 t) p q).trans ?_
  refine Eq.trans ?_ (congrArg (hidden (V c main_arg0) (V c main_v18) (V c main_arg1) (V c main_arg2) (V c main_v19)) e5).symm
  exact congrArg (fun v => max v zero32) (entry_congr q (fun k => feat0 V c t p k _ rfl) (fun k => mean0 V c t p k _ rfl)
    (wself0 V c t) (wneigh0 V c t) (bias0 V c t))

/-- An index of the output array is in point t's block iff each coordinate is in the block's range on its axis. -/
theorem mem_blk0 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v20).slice (win0_5.rect t)).set ↔ _
  rw [View.set_slice_whole, Rect.mem_set_unit]
  exact Iff.rfl

/-- Every block of 4000 rows is some point's. -/
theorem onto0 : ∀ q0 : Fin 25, ∃ t : Fin cfg0.N, win0_5.index t = ![q0.val, 0] :=
  (by decide +kernel : ∀ q0 : Fin 25, ∃ t : Fin grid0.N, win0_5.index t = ![q0.val, 0])

/-- The 25 blocks of 4000 rows cover the 100000 rows: row r is in block r / 4000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := onto0 ⟨(i 0).val / 4000, by omega⟩
  have q0 : win0_5.index t (0 : Fin 2) = (i 0).val / 4000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- The region's output array after its write-backs: the layer's function of the arrays as the region finds them. -/
theorem final0 (c : Dev nD) :
    (dat0 V c).arrAt 5 cfg0.N = hidden (V c main_arg0) (V c main_v18) (V c main_arg1) (V c main_arg2) (V c main_v19) :=
  (dat0 V c).arrAt_eq_of_cover 5 _ (fun t _ => flushed0 V c t) cover0

/-! ## Region 1 -/

/-- The printed index maps of region 1, decided over its 25 grid points: the two streamed inputs and the output move
    with the point along the rows, the weights and the bias row stay at block (0, 0). -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 25 :=
  (by decide +kernel : ∀ t : Fin grid1.N, _)

/-- Row p of the feature block at point t is row 4000 t + p of the feature array. -/
theorem feat1 (c : Dev nD) (t : Fin cfg1.N) (p : Fin 4000) (k : Fin 128) (r : Fin 100000) (hr : r.val = 4000 * t.val + p.val) :
    (iblk1 V c 0 t : Vec Ideal S4000x128 .f32) (ix2 p k) = (V c main_v20 : Nodes) (ix2 r k) := by
  obtain ⟨e0, e1, -⟩ := index1 t
  unfold iblk1
  rw [View.read_apply]
  show V c main_v20 _ = V c main_v20 _
  congr 1
  funext a
  apply Fin.ext
  match a with
  | ⟨0, _⟩ => show win1_0.index t 0 * 4000 + 1 * p.val = r.val; omega
  | ⟨1, _⟩ => show win1_0.index t 1 * 128 + 1 * k.val = k.val; omega

/-- Row p of the neighbour-mean block at point t is row 4000 t + p of the neighbour-mean array. -/
theorem mean1 (c : Dev nD) (t : Fin cfg1.N) (p : Fin 4000) (k : Fin 128) (r : Fin 100000) (hr : r.val = 4000 * t.val + p.val) :
    (iblk1 V c 1 t : Vec Ideal S4000x128 .f32) (ix2 p k) = (V c main_v39 : Nodes) (ix2 r k) := by
  obtain ⟨-, -, e0, e1, -⟩ := index1 t
  unfold iblk1
  rw [View.read_apply]
  show V c main_v39 _ = V c main_v39 _
  congr 1
  funext a
  apply Fin.ext
  match a with
  | ⟨0, _⟩ => show win1_1.index t 0 * 4000 + 1 * p.val = r.val; omega
  | ⟨1, _⟩ => show win1_1.index t 1 * 128 + 1 * k.val = k.val; omega

/-- The self weights' block at every point is the whole matrix. -/
theorem wself1 (c : Dev nD) (t : Fin cfg1.N) : (iblk1 V c 2 t : Vec Ideal S128x128 .f32) = (V c main_arg4 : Weights) := by
  obtain ⟨-, -, -, -, e0, e1, -⟩ := index1 t
  funext y
  unfold iblk1
  rw [View.read_apply]
  show V c main_arg4 _ = V c main_arg4 _
  congr 1
  funext a
  apply Fin.ext
  match a with
  | ⟨0, _⟩ => show win1_2.index t 0 * 128 + 1 * (y 0).val = (y 0).val; omega
  | ⟨1, _⟩ => show win1_2.index t 1 * 128 + 1 * (y 1).val = (y 1).val; omega

/-- The neighbour weights' block at every point is the whole matrix. -/
theorem wneigh1 (c : Dev nD) (t : Fin cfg1.N) : (iblk1 V c 3 t : Vec Ideal S128x128 .f32) = (V c main_arg5 : Weights) := by
  obtain ⟨-, -, -, -, -, -, e0, e1, -⟩ := index1 t
  funext y
  unfold iblk1
  rw [View.read_apply]
  show V c main_arg5 _ = V c main_arg5 _
  congr 1
  funext a
  apply Fin.ext
  match a with
  | ⟨0, _⟩ => show win1_3.index t 0 * 128 + 1 * (y 0).val = (y 0).val; omega
  | ⟨1, _⟩ => show win1_3.index t 1 * 128 + 1 * (y 1).val = (y 1).val; omega

/-- The bias row's block at every point is the whole row. -/
theorem bias1 (c : Dev nD) (t : Fin cfg1.N) : (iblk1 V c 4 t : Vec Ideal S1x128 .f32) = (V c main_v40 : BiasRow) := by
  obtain ⟨-, -, -, -, -, -, -, -, e0, e1, -⟩ := index1 t
  funext y
  unfold iblk1
  rw [View.read_apply]
  show V c main_v40 _ = V c main_v40 _
  congr 1
  funext a
  apply Fin.ext
  match a with
  | ⟨0, _⟩ => show win1_4.index t 0 * 1 + 1 * (y 0).val = (y 0).val; omega
  | ⟨1, _⟩ => show win1_4.index t 1 * 128 + 1 * (y 1).val = (y 1).val; omega

/-- What point t writes back is block t of the layer's function of the arrays as the region finds them. -/
theorem flushed1 (c : Dev nD) (t : Fin cfg1.N) :
    (dat1 V c).flushed 5 t = ((cfg1.win 5).blk t).view.read (Elt Ideal)
      (affine (V c main_v20) (V c main_v39) (V c main_arg4) (V c main_arg5) (V c main_v40)) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz, View.ld_unit_zero (S := S1x128) hz]
  obtain ⟨-, -, -, -, -, -, -, -, -, -, e0, e1, ht⟩ := index1 t
  funext j
  obtain ⟨p, q, rfl⟩ : ∃ (p : Fin 4000) (q : Fin 128), j = ix2 p q := ⟨j 0, j 1, eq_ix2 j⟩
  have hp : p.val < 4000 := p.isLt
  have e5 : ((cfg1.win 5).blk t).view.emb (ix2 p q) = ix2 (⟨4000 * t.val + p.val, by omega⟩ : Fin 100000) q := by
    funext a
    apply Fin.ext
    match a with
    | ⟨0, _⟩ => show win1_5.index t 0 * 4000 + 1 * p.val = 4000 * t.val + p.val; omega
    | ⟨1, _⟩ => show win1_5.index t 1 * 128 + 1 * q.val = q.val; omega
  show k1_pay1 (iblk1 V c 0 t) (iblk1 V c 1 t) (iblk1 V c 2 t) (iblk1 V c 3 t) (iblk1 V c 4 t) (ix2 p q)
    = affine (V c main_v20) (V c main_v39) (V c main_arg4) (V c main_arg5) (V c main_v40) (((cfg1.win 5).blk t).view.emb (ix2 p q))
  refine (Payload.second_apply (iblk1 V c 0 t) (iblk1 V c 1 t) (iblk1 V c 2 t) (iblk1 V c 3 t) (iblk1 V c 4 t) p q).trans ?_
  refine Eq.trans ?_ (congrArg (affine (V c main_v20) (V c main_v39) (V c main_arg4) (V c main_arg5) (V c main_v40)) e5).symm
  exact entry_congr q (fun k => feat1 V c t p k _ rfl) (fun k => mean1 V c t p k _ rfl)
    (wself1 V c t) (wneigh1 V c t) (bias1 V c t)

/-- An index of the output array is in point t's block iff each coordinate is in the block's range on its axis. -/
theorem mem_blk1 (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v41).slice (win1_5.rect t)).set ↔ _
  rw [View.set_slice_whole, Rect.mem_set_unit]
  exact Iff.rfl

/-- Every block of 4000 rows is some point's. -/
theorem onto1 : ∀ q0 : Fin 25, ∃ t : Fin cfg1.N, win1_5.index t = ![q0.val, 0] :=
  (by decide +kernel : ∀ q0 : Fin 25, ∃ t : Fin grid1.N, win1_5.index t = ![q0.val, 0])

/-- The 25 blocks of 4000 rows cover the 100000 rows: row r is in block r / 4000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := onto1 ⟨(i 0).val / 4000, by omega⟩
  have q0 : win1_5.index t (0 : Fin 2) = (i 0).val / 4000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- The region's output array after its write-backs: the layer's function of the arrays as the region finds them. -/
theorem final1 (c : Dev nD) :
    (dat1 V c).arrAt 5 cfg1.N = affine (V c main_v20) (V c main_v39) (V c main_arg4) (V c main_arg5) (V c main_v40) :=
  (dat1 V c).arrAt_eq_of_cover 5 _ (fun t _ => flushed1 V c t) cover1

end Cert.KernelIdeal.Blocks

end
-- ==== Proof.KernelHost.lean ====
/-
  What each kernel region finds on entry, read through the host operations before it.

  Before each region the host computes, from a feature array z and the edge lists src and dst, the mean of every
  node's in-neighbours' rows: negative sources are wrapped by the node count, the sources' rows are gathered, added
  into the destinations' rows, and each row is divided by the larger of its in-degree and one. The certificate never
  opens this chain: it is one function, agg, of z, src and dst, applied by the kernel program and by the reference
  alike. The bias vector is reshaped to one row.
-/
import proofs.«133431_j128849019131_1_alg».proof.Proof.Gen.KernelIdeal.Frame
import Idealize.ShloMosaic.Lib.StableHlo.Run
import Idealize.ShloMosaic.PureOps.Ideal

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

/-- The mean of every node's in-neighbours' rows of z along the edges src -> dst, as the host operations spell it. -/
def agg (z : (⟨S100000x128, .f32⟩ : BufTy).Contents (Elt Ideal)) (src dst : (⟨S1600000, .i32⟩ : BufTy).Contents (Elt Ideal)) :
    (⟨S100000x128, .f32⟩ : BufTy).Contents (Elt Ideal) :=
  Host.divf (F := Ideal)
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 z
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32)))))

variable (m : (ℓ : Loc nD τ sig) → Buf (Elt Ideal) ℓ) (ρ : Dev nD → PrngReg)

/-! ## Region 0's entry: the launch memory through the first stretch -/

/-- The features are the first argument, untouched. -/
theorem e0_feat (c : Dev nD) : V1 m ρ c main_arg0 = m ((c : Thread nD τ).loc main_arg0) := by
  show StableHlo.after hostOps0 (W0 m ρ c) (Proc.devRef .tc main_arg0) = _
  after_results_simp <;> rfl

/-- The neighbour means are the host chain of the features and the edge lists. -/
theorem e0_mean (c : Dev nD) : V1 m ρ c main_v18
    = agg (m ((c : Thread nD τ).loc main_arg0)) (m ((c : Thread nD τ).loc main_arg7)) (m ((c : Thread nD τ).loc main_arg8)) := by
  show StableHlo.after hostOps0 (W0 m ρ c) (Proc.devRef .tc main_v18) = _
  after_results_simp <;> rfl

/-- The self weights are the second argument, untouched. -/
theorem e0_wself (c : Dev nD) : V1 m ρ c main_arg1 = m ((c : Thread nD τ).loc main_arg1) := by
  show StableHlo.after hostOps0 (W0 m ρ c) (Proc.devRef .tc main_arg1) = _
  after_results_simp <;> rfl

/-- The neighbour weights are the third argument, untouched. -/
theorem e0_wneigh (c : Dev nD) : V1 m ρ c main_arg2 = m ((c : Thread nD τ).loc main_arg2) := by
  show StableHlo.after hostOps0 (W0 m ρ c) (Proc.devRef .tc main_arg2) = _
  after_results_simp <;> rfl

/-- The bias row is the fourth argument reshaped to one row. -/
theorem e0_bias (c : Dev nD) : V1 m ρ c main_v19 = shapeCast S1x128 (m ((c : Thread nD τ).loc main_arg3)) shapeCasts_S128_S1x128 := by
  show StableHlo.after hostOps0 (W0 m ρ c) (Proc.devRef .tc main_v19) = _
  after_results_simp <;> rfl

/-! ## Between the regions: the arguments the second stretch and the second region read are still as launched -/

theorem mid_main_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results_simp <;> rfl)

theorem mid_main_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results_simp <;> rfl)

theorem mid_main_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)

theorem mid_main_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)

theorem mid_main_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results_simp <;> rfl)

/-! ## Region 1's entry: region 0's exit through the second stretch -/

/-- The features of the second layer are the first region's output array, which the second stretch does not write. -/
theorem e1_feat (c : Dev nD) : V3 m ρ c main_v20 = (dat0 (V1 m ρ) c).arrAt 5 cfg0.N := by
  refine Eq.trans ?_ (W2_arr m ρ c 5)
  show StableHlo.after hostOps1 (W2 m ρ c) (Proc.devRef .tc main_v20) = _
  after_results_simp <;> rfl

/-- The second layer's neighbour means are the host chain of the first region's output array and the edge lists. -/
theorem e1_mean (c : Dev nD) : V3 m ρ c main_v39
    = agg ((dat0 (V1 m ρ) c).arrAt 5 cfg0.N) (m ((c : Thread nD τ).loc main_arg7)) (m ((c : Thread nD τ).loc main_arg8)) := by
  rw [← W2_arr m ρ c 5, ← mid_main_arg7 m ρ c, ← mid_main_arg8 m ρ c]
  show StableHlo.after hostOps1 (W2 m ρ c) (Proc.devRef .tc main_v39) = _
  after_results_simp <;> rfl

/-- The second layer's self weights are the fifth argument, untouched. -/
theorem e1_wself (c : Dev nD) : V3 m ρ c main_arg4 = m ((c : Thread nD τ).loc main_arg4) := by
  refine Eq.trans ?_ (mid_main_arg4 m ρ c)
  show StableHlo.after hostOps1 (W2 m ρ c) (Proc.devRef .tc main_arg4) = _
  after_results_simp <;> rfl

/-- The second layer's neighbour weights are the sixth argument, untouched. -/
theorem e1_wneigh (c : Dev nD) : V3 m ρ c main_arg5 = m ((c : Thread nD τ).loc main_arg5) := by
  refine Eq.trans ?_ (mid_main_arg5 m ρ c)
  show StableHlo.after hostOps1 (W2 m ρ c) (Proc.devRef .tc main_arg5) = _
  after_results_simp <;> rfl

/-- The second layer's bias row is the seventh argument reshaped to one row. -/
theorem e1_bias (c : Dev nD) : V3 m ρ c main_v40 = shapeCast S1x128 (m ((c : Thread nD τ).loc main_arg6)) shapeCasts_S128_S1x128 := by
  rw [← mid_main_arg6 m ρ c]
  show StableHlo.after hostOps1 (W2 m ρ c) (Proc.devRef .tc main_v40) = _
  after_results_simp <;> rfl

end Cert.KernelIdeal.Host

end
-- ==== Proof.KernelValue.lean ====
/-
  The kernel program's result array as the two layers' function of the launch memory.

  The first region finds the features, their neighbour means (the host chain of the features and the edge lists),
  the first layer's weights and its bias reshaped to a row, and leaves the first layer's output. The second stretch of
  host operations forms the neighbour means of that output; the second region finds that output, those means, the second
  layer's weights and bias row, and leaves the second layer's affine function of them: the program's result.
-/
import proofs.«133431_j128849019131_1_alg».proof.Proof.KernelBlocks
import proofs.«133431_j128849019131_1_alg».proof.Proof.KernelHost
import proofs.«133431_j128849019131_1_alg».proof.Proof.Spec
import Idealize.ShloMosaic.Lib.ValueLayout
import Idealize.ShloMosaic.Lib.ValueIdx

set_option maxRecDepth 16384

noncomputable section

namespace Cert.KernelIdeal.Result

open Cert.KernelIdeal Cert.KernelIdeal.Gen Cert.Sage
open Idealize.ShloMosaic Idealize.ShloMosaic.TcCoe Idealize.ShloMosaic.ValueIdx Idealize.SL.Sem

/-- A bias vector reshaped to one row is the vector read as a row. -/
theorem row_reshape (b : (⟨S128, .f32⟩ : BufTy).Contents (Elt Ideal)) :
    (shapeCast S1x128 b shapeCasts_S128_S1x128 : BiasRow) = rowOf b := by
  funext i
  obtain ⟨z, q, rfl⟩ : ∃ (z : Fin 1) (q : Fin 128), i = ix2 z q := ⟨i 0, i 1, eq_ix2 i⟩
  obtain rfl : z = 0 := Subsingleton.elim _ _
  exact shapeCast_a_1a_apply b shapeCasts_S128_S1x128 0 q

/-- The program's result from its nine arguments: the second layer's affine function of the first layer's output and
    of that output's neighbour means. -/
def out (x : Nodes) (w1s w1n : Weights) (b1 : Bias) (w2s w2n : Weights) (b2 : Bias)
    (src dst : (⟨S1600000, .i32⟩ : BufTy).Contents (Elt Ideal)) : Nodes :=
  affine (hidden x (Host.agg x src dst) w1s w1n (rowOf b1)) (Host.agg (hidden x (Host.agg x src dst) w1s w1n (rowOf b1)) src dst)
    w2s w2n (rowOf b2)

variable (m : (ℓ : Loc nD τ sig) → Buf (Elt Ideal) ℓ) (ρ : Dev nD → PrngReg)

/-- The first region leaves the first layer's output of the launch memory's arguments. -/
theorem first_layer (c : Dev nD) :
    (dat0 (V1 m ρ) c).arrAt 5 cfg0.N
      = hidden (m ((c : Thread nD τ).loc main_arg0)) (Host.agg (m ((c : Thread nD τ).loc main_arg0)) (m ((c : Thread nD τ).loc main_arg7)) (m ((c : Thread nD τ).loc main_arg8))) (m ((c : Thread nD τ).loc main_arg1)) (m ((c : Thread nD τ).loc main_arg2))
          (rowOf (m ((c : Thread nD τ).loc main_arg3))) := by
  rw [Blocks.final0 (V1 m ρ) c, Host.e0_feat, Host.e0_mean, Host.e0_wself, Host.e0_wneigh, Host.e0_bias, row_reshape]

/-- The result array after the run is the program's function of the launch memory's arguments. -/
theorem result (c : Dev nD) :
    W4 m ρ c (Proc.devRef .tc main_v41)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) := by
  refine (W4_arr m ρ c 5).trans ?_
  rw [Blocks.final1 (V3 m ρ) c, Host.e1_feat, Host.e1_mean, Host.e1_wself, Host.e1_wneigh, Host.e1_bias, row_reshape, first_layer]
  rfl

end Cert.KernelIdeal.Result

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.RefValue.lean ====
/-
  The reference's result as the two layers' function of its arguments.

  The reference computes each layer on the host: the neighbour means by the same host chain as the kernel program
  (never opened here: one function, agg), two matrix products over all 100000 rows, their sum, the bias vector
  broadcast along the rows, and after the first layer the maximum with zero. Read at a node and a feature each matrix
  product is the sum over the 128 lanes, so the dense part is the layer's affine function and the whole result is the
  second layer's affine function of the first layer's output.
-/
import proofs.«133431_j128849019131_1_alg».proof.Proof.Gen.ReferenceIdeal.Run
import proofs.«133431_j128849019131_1_alg».proof.Proof.Gen.ReferenceIdeal.Read
import proofs.«133431_j128849019131_1_alg».proof.Proof.Spec
import proofs.«133431_j128849019131_1_alg».proof.Proof.LibMatmulRows
import proofs.«133431_j128849019131_1_alg».proof.Proof.LibBiasRows
import Idealize.ShloMosaic.PureOps.Ideal
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen Cert.Sage
open Idealize.ShloMosaic Idealize.ShloMosaic.TcCoe Idealize.ShloMosaic.ValueIdx Idealize.SL.Sem
open scoped BigOperators

/-- The mean of every node's in-neighbours' rows of z along the edges src -> dst, as the host operations spell it. -/
def agg (z : FVec Ideal S100000x128 .f32) (src dst : IVec S1600000 32) : FVec Ideal S100000x128 .f32 :=
  Host.divf (F := Ideal)
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 z
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32)))))

/-- The dimension record of the reference's matrix products: all rows of the left matrix against the weights' rows. -/
abbrev DD : DotDims S100000x128 S128x128 S100000x128 := dot_S100000x128_S128x128_S100000x128_1_0_0_1_n_n

/-- A matrix of 100000 rows times a weight matrix, at (p, q): the sum over the 128 lanes. -/
theorem product (l : FVec Ideal S100000x128 .f32) (r : FVec Ideal S128x128 .f32) (p : Fin 100000) (q : Fin 128) :
    Host.dotGeneral (F := Ideal) DD none l r (ix2 p q) = ∑ k : Fin 128, l (ix2 p k) * r (ix2 k q) :=
  Cert.LibMatmulRows.hostdot_rows DD rfl rfl Read.lhs_main_v19_0 Read.lhs_main_v19_1 Read.rhs_main_v19_0 Read.rhs_main_v19_1 l r p q

/-- The reference's dense part of a layer: self product plus neighbour product, plus the bias along the rows. -/
def dense (x mean : FVec Ideal S100000x128 .f32) (ws wn : FVec Ideal S128x128 .f32) (b : FVec Ideal S128 .f32) : FVec Ideal S100000x128 .f32 :=
  addf (F := Ideal) (addf (F := Ideal) (Host.dotGeneral (F := Ideal) DD none x ws) (Host.dotGeneral (F := Ideal) DD none mean wn))
    (broadcastInDim S100000x128 ![0, 1] bcast_S1x128_S100000x128_0_1 (broadcastInDim S1x128 ![1] bcast_S128_S1x128_1 b))

/-- The reference's maximum with zero. -/
def relu (y : FVec Ideal S100000x128 .f32) : FVec Ideal S100000x128 .f32 :=
  maximumf (F := Ideal) y (broadcastInDim S100000x128 ![] bcast_S_S100000x128 (constant (F := Ideal) S_ .f32 0x00000000#32))

/-- The reference's whole result from its nine arguments. -/
def out (x : FVec Ideal S100000x128 .f32) (w1s w1n : FVec Ideal S128x128 .f32) (b1 : FVec Ideal S128 .f32) (w2s w2n : FVec Ideal S128x128 .f32) (b2 : FVec Ideal S128 .f32)
    (src dst : IVec S1600000 32) : FVec Ideal S100000x128 .f32 :=
  dense (relu (dense x (agg x src dst) w1s w1n b1)) (agg (relu (dense x (agg x src dst) w1s w1n b1)) src dst) w2s w2n b2

/-- The generated run's result term is that function of the launch memory's arguments. -/
theorem res_eq (m : (ℓ : Loc nD τ sig) → Buf (Elt Ideal) ℓ) (c : Dev nD) :
    Value.res_main_v50 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  unfold Value.res_main_v50
  rfl

/-- The dense part is the layer's affine function, the bias vector read as a row. -/
theorem dense_eq (x mean : FVec Ideal S100000x128 .f32) (ws wn : FVec Ideal S128x128 .f32) (b : FVec Ideal S128 .f32) :
    dense x mean ws wn b = affine x mean ws wn (rowOf b) := by
  funext i
  obtain ⟨r, q, rfl⟩ : ∃ (r : Fin 100000) (q : Fin 128), i = ix2 r q := ⟨i 0, i 1, eq_ix2 i⟩
  show ((Host.dotGeneral (F := Ideal) DD none x ws (ix2 r q) : EReal) + Host.dotGeneral (F := Ideal) DD none mean wn (ix2 r q))
      + broadcastInDim S100000x128 ![0, 1] bcast_S1x128_S100000x128_0_1 (broadcastInDim S1x128 ![1] bcast_S128_S1x128_1 b) (ix2 r q)
    = (∑ k : Fin 128, x (ix2 r k) * ws (ix2 k q) + ∑ k : Fin 128, mean (ix2 r k) * wn (ix2 k q)) + b (ix1 q)
  exact congrArg₂ (· + ·) (congrArg₂ (· + ·) (product x ws r q) (product mean wn r q))
    (Cert.LibBiasRows.bias_host (by decide) b bcast_S128_S1x128_1 bcast_S1x128_S100000x128_0_1 r q)

/-- The maximum with zero of the affine function is the first layer. -/
theorem relu_eq (x mean : Nodes) (ws wn : Weights) (b : BiasRow) : relu (affine x mean ws wn b) = hidden x mean ws wn b := by
  funext i
  show max (affine x mean ws wn b i) (broadcastInDim S100000x128 ![] bcast_S_S100000x128 (constant (F := Ideal) S_ .f32 0x00000000#32) i)
    = max (affine x mean ws wn b i) zero32
  exact congrArg (max (affine x mean ws wn b i))
    (broadcastInDim_apply _ bcast_S_S100000x128 (constant (F := Ideal) S_ .f32 0x00000000#32) i ix0 (fun a => a.elim0))

/-- The reference's result: the second layer's affine function of the first layer's output and of its neighbour means. -/
theorem out_eq (x : FVec Ideal S100000x128 .f32) (w1s w1n : FVec Ideal S128x128 .f32) (b1 : FVec Ideal S128 .f32) (w2s w2n : FVec Ideal S128x128 .f32) (b2 : FVec Ideal S128 .f32)
    (src dst : IVec S1600000 32) :
    out x w1s w1n b1 w2s w2n b2 src dst
      = affine (hidden x (agg x src dst) w1s w1n (rowOf b1)) (agg (hidden x (agg x src dst) w1s w1n (rowOf b1)) src dst) w2s w2n (rowOf b2) := by
  unfold out
  rw [dense_eq x, relu_eq, dense_eq]

end Cert.ReferenceIdeal.RefValue

end
-- ==== Proof.lean ====
/-
  Two GraphSAGE layers on 100000 nodes with 128 features and 1.6 million edges: the kernel program against its
  host-only reference, over the extended reals.

  Each layer is  out(r, q) = ( sum_k x(r, k) * ws(k, q) + sum_k mean(r, k) * wn(k, q) ) + bias(q),  where mean is the
  mean of node r's in-neighbours' rows of x; the first layer's output then takes the maximum with zero and is the
  second layer's x. The neighbour means are computed by the same chain of host operations in both programs, so they
  enter as one function of x and the edge lists that is never opened. The kernel program computes the dense part in
  two kernel regions, 25 blocks of 4000 rows each, the matrices narrowed to bf16 (the identity on extended reals) and
  multiplied into a zero accumulator; the reference computes it with two matrix products over all rows. Read at a
  node and a feature both are the same sums in the same grouping, so the two results agree without any law of
  extended-real arithmetic and without using that the inputs are finite.

  The three frames: the two kernel programs' are the generated frame certificates; the reference's is its generated
  run with the result dropped. The idealization rewrote nothing, so its claim is trivial.
-/
import proofs.«133431_j128849019131_1_alg».proof.Defs
import proofs.«133431_j128849019131_1_alg».proof.Proof.Gen.Kernel
import proofs.«133431_j128849019131_1_alg».proof.Proof.Gen.Kernel.Skeleton
import proofs.«133431_j128849019131_1_alg».proof.Proof.Gen.Kernel.Launch
import proofs.«133431_j128849019131_1_alg».proof.Proof.Gen.Kernel.Points
import proofs.«133431_j128849019131_1_alg».proof.Proof.Gen.Kernel.Frame
import proofs.«133431_j128849019131_1_alg».proof.Proof.Gen.KernelIdeal
import proofs.«133431_j128849019131_1_alg».proof.Proof.Gen.KernelIdeal.Skeleton
import proofs.«133431_j128849019131_1_alg».proof.Proof.Gen.KernelIdeal.Launch
import proofs.«133431_j128849019131_1_alg».proof.Proof.Gen.KernelIdeal.Points
import proofs.«133431_j128849019131_1_alg».proof.Proof.Gen.KernelIdeal.Frame
import proofs.«133431_j128849019131_1_alg».proof.Proof.Gen.ReferenceIdeal
import proofs.«133431_j128849019131_1_alg».proof.Proof.Gen.Pre_finite_inputs
import proofs.«133431_j128849019131_1_alg».proof.Proof.Gen.ReferenceIdeal.Run
import proofs.«133431_j128849019131_1_alg».proof.Proof.Gen.ReferenceIdeal.Read
import proofs.«133431_j128849019131_1_alg».proof.Proof.KernelRun
import proofs.«133431_j128849019131_1_alg».proof.Proof.KernelValue
import proofs.«133431_j128849019131_1_alg».proof.Proof.RefValue
import Idealize.ShloMosaic.Adequacy
import Idealize.ShloMosaic.Init

noncomputable section

namespace Cert.Proof

open Idealize.ShloMosaic Idealize.ShloMosaic.TcCoe Idealize.SL.Sem Cert.Sage

/-- The chain of host operations that forms the neighbour means is the same function in the two programs: the same
    operations with the same dimension numbers and the same constants. -/
theorem agg_same (z : Nodes) (src dst : IVec Cert.KernelIdeal.S1600000 32) :
    Cert.KernelIdeal.Host.agg z src dst = Cert.ReferenceIdeal.RefValue.agg z src dst := rfl

/-- So the two programs' results are the same function of the nine arguments. -/
theorem out_same (x : Nodes) (w1s w1n : Weights) (b1 : Bias) (w2s w2n : Weights) (b2 : Bias) (src dst : IVec Cert.KernelIdeal.S1600000 32) :
    Cert.ReferenceIdeal.RefValue.out x w1s w1n b1 w2s w2n b2 src dst = Cert.KernelIdeal.Result.out x w1s w1n b1 w2s w2n b2 src dst := by
  rw [Cert.ReferenceIdeal.RefValue.out_eq]
  unfold Cert.KernelIdeal.Result.out
  simp only [agg_same]

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the result array at the two layers' function of the
    arguments. -/
theorem algebraic : Cert.algebraic_KernelIdeal_ReferenceIdeal := by
  intro m ρ m' ρ' _ hagree
  refine ⟨fun c => Cert.KernelIdeal.Result.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Result.result m ρ c), (h c).2⟩) (Cert.KernelIdeal.Named.run m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.RefValue.res_eq, h0, h1, h2, h3, h4, h5, h6, h7, h8]
    exact out_same _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
